-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 37
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S1024x1024, .bf16⟩
  | .hbm, ⟨20, _⟩ => ⟨S1024x1024, .bf16⟩
  | .hbm, ⟨21, _⟩ => ⟨S1024x1024, .bf16⟩
  | .hbm, ⟨22, _⟩ => ⟨S1024x1024, .bf16⟩
  | .hbm, ⟨23, _⟩ => ⟨S4096x1024, .bf16⟩
  | .hbm, ⟨24, _⟩ => ⟨S1024x1024, .bf16⟩
  | .hbm, ⟨25, _⟩ => ⟨S1024x1024, .bf16⟩
  | .hbm, ⟨26, _⟩ => ⟨S1024x1024, .bf16⟩
  | .hbm, ⟨27, _⟩ => ⟨S1024x1024, .bf16⟩
  | .hbm, ⟨28, _⟩ => ⟨S4096x1024, .bf16⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S4096x1024, .bf16⟩
  | .hbm, ⟨34, _⟩ => ⟨S4096x1024, .bf16⟩
  | .hbm, ⟨35, _⟩ => ⟨S4096x1024, .f32⟩
  | .hbm, ⟨36, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S4096x1024, .bf16⟩
  | .local _ .vmem, ⟨5, _⟩ => ⟨S4096x1024, .bf16⟩
  | .local _ .vmem, ⟨6, _⟩ => ⟨S1x4096, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16_0 : Ref sig .tc := ⟨.hbm, 35, rfl⟩
abbrev main_v16_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .bf16 = 32 ∨ (Rect.block (s := S4096x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .bf16 = 32 ∨ (Rect.block (s := S4096x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_v14) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S4096, .f32⟩
  | .hbm, ⟨29, _⟩ => ⟨S1x4096, .f32⟩
  | .hbm, ⟨30, _⟩ => ⟨S4096x4096, .f32⟩
  | .hbm, ⟨31, _⟩ => ⟨S4096x4096, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  bcast_S_S4096x1024 : S_.BroadcastsInDim S4096x1024 (![] : Fin 0 → Fin S4096x1024.rank)
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.RegionEntryK.lean ====
/-
  The frame of the LSTM-cell program, at any float instance.

  @main first runs sixteen host operations (eight casts of the gate weights, two joins of four weight
  matrices each along the rows, two joins of the four bias vectors, their sum, a reshape of that sum to a
  row, and casts of the input and of the hidden state), then one region over a grid of sixteen points.
  At point t the body is handed rows 256·t … 256·t+255 of the input, of the hidden state and of the cell
  state, both joined weight matrices and the bias row whole, and two output blocks of 256 rows; it loads
  them all, computes, and stores both output blocks whole.

  Here: the contents every array has when the region is entered (the fold of the host operations over the
  launch contents), that no host operation writes an argument array, what the body leaves in each output
  block as a function of the blocks it was handed, the body's run, and from these the region's run and the
  frame claim: the program terminates without a fault and every argument array ends as launched.
-/
import proofs.«165003_j10136122819072_2_alg».proof.Proof.Gen.Kernel.Launch
import proofs.«165003_j10136122819072_2_alg».proof.Proof.Gen.Kernel.Skeleton
import proofs.«165003_j10136122819072_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch contents after the sixteen host operations. -/
abbrev entry (c : Dev nD) (b : Ref sig .tc) : Buf (Elt F) ((c : Thread nD τ).loc b) :=
  StableHlo.after hostOps0 (fun b => m (c, b)) b

/-- No host operation allocates a buffer. -/
theorem hostOps_fresh : (hostOps0 : List (HloOp τ sig (Elt F))).Forall fun op => op.fresh = ∅ := by
  simp only [List.Forall]; repeat' constructor

/-- @main is the host operations followed by the region, so the region starts from `entry`. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- Each host operation writes exactly its result buffer, and no result buffer is an argument array:
    an argument array is found by the region as launched. -/
local macro "arg_untouched" : tactic => `(tactic| (
  refine StableHlo.after_of_forall_not_mem (b := Proc.devRef .tc _) _ _ (List.forall_iff_forall_mem.mp ?_)
  simp only [hostOps0, List.Forall, StableHlo.unary_writes, StableHlo.nary_writes, StableHlo.binary_writes,
    StableHlo.reshape_writes, Finset.mem_singleton]
  repeat' apply And.intro
  all_goals exact StableHlo.devRef_ne_of_ne (by decide)))

theorem entry_arg0 (c : Dev nD) : entry m c main_arg0 = m ((c : Thread nD τ).loc main_arg0) := by arg_untouched
theorem entry_arg1 (c : Dev nD) : entry m c main_arg1 = m ((c : Thread nD τ).loc main_arg1) := by arg_untouched
theorem entry_arg2 (c : Dev nD) : entry m c main_arg2 = m ((c : Thread nD τ).loc main_arg2) := by arg_untouched
theorem entry_arg3 (c : Dev nD) : entry m c main_arg3 = m ((c : Thread nD τ).loc main_arg3) := by arg_untouched
theorem entry_arg4 (c : Dev nD) : entry m c main_arg4 = m ((c : Thread nD τ).loc main_arg4) := by arg_untouched
theorem entry_arg5 (c : Dev nD) : entry m c main_arg5 = m ((c : Thread nD τ).loc main_arg5) := by arg_untouched
theorem entry_arg6 (c : Dev nD) : entry m c main_arg6 = m ((c : Thread nD τ).loc main_arg6) := by arg_untouched
theorem entry_arg7 (c : Dev nD) : entry m c main_arg7 = m ((c : Thread nD τ).loc main_arg7) := by arg_untouched
theorem entry_arg8 (c : Dev nD) : entry m c main_arg8 = m ((c : Thread nD τ).loc main_arg8) := by arg_untouched
theorem entry_arg9 (c : Dev nD) : entry m c main_arg9 = m ((c : Thread nD τ).loc main_arg9) := by arg_untouched
theorem entry_arg10 (c : Dev nD) : entry m c main_arg10 = m ((c : Thread nD τ).loc main_arg10) := by arg_untouched
theorem entry_arg11 (c : Dev nD) : entry m c main_arg11 = m ((c : Thread nD τ).loc main_arg11) := by arg_untouched
theorem entry_arg12 (c : Dev nD) : entry m c main_arg12 = m ((c : Thread nD τ).loc main_arg12) := by arg_untouched
theorem entry_arg13 (c : Dev nD) : entry m c main_arg13 = m ((c : Thread nD τ).loc main_arg13) := by arg_untouched
theorem entry_arg14 (c : Dev nD) : entry m c main_arg14 = m ((c : Thread nD τ).loc main_arg14) := by arg_untouched
theorem entry_arg15 (c : Dev nD) : entry m c main_arg15 = m ((c : Thread nD τ).loc main_arg15) := by arg_untouched
theorem entry_arg16 (c : Dev nD) : entry m c main_arg16 = m ((c : Thread nD τ).loc main_arg16) := by arg_untouched
theorem entry_arg17 (c : Dev nD) : entry m c main_arg17 = m ((c : Thread nD τ).loc main_arg17) := by arg_untouched
theorem entry_arg18 (c : Dev nD) : entry m c main_arg18 = m ((c : Thread nD τ).loc main_arg18) := by arg_untouched

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not. -/
theorem staged_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not. -/
theorem staged_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not. -/
theorem staged_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not. -/
theorem staged_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not. -/
theorem staged_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not. -/
theorem staged_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- In a final state where every array of the region is at what the proof data computes and every other
    buffer is as the region found it, each argument array is as launched. The cell state is the one argument a
    window stages (an input window: never written back); the others are outside the region. -/
theorem args_kept_at (pd : (p : Fin 1) → (c : Dev nD) → Dat τ (Elt F) Unit ℕ (UR sig nD τ) ℕ (cfgs p) c)
    (hA : ∀ c w, (pd 0 c).A w = entry m c (Pipeline.arrRef spec0 w))
    (r : PUnit × MemSt nD τ sig (Elt F)) (h : Pipeline.FramePost cfgs pd 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).2 main_arg0 (Pipeline.mem_restRefs_of main_arg0 (by decide) (by decide))).trans (entry_arg0 m c),
    ((h c).1 5).trans (((pd 0 c).arrAt_in 5 rfl _).trans ((hA c 5).trans (entry_arg1 m c))),
    ((h c).2 main_arg2 (Pipeline.mem_restRefs_of main_arg2 (by decide) (by decide))).trans (entry_arg2 m c),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- So a run of @main to such states is a run to states with every argument array as launched. -/
theorem args_kept (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept_at m pd hA r h c) h

/-! ## What the body leaves in the two output blocks -/

/-- A whole block of 256 rows, the whole of a joined weight matrix, the whole bias row. -/
abbrev rowsRect : Rect S256x1024 := Rect.unit (s := S256x1024) ![0, 0] S256x1024.size inb_S256x1024_S256x1024_0_0
abbrev weightRect : Rect S4096x1024 := Rect.unit (s := S4096x1024) ![0, 0] S4096x1024.size inb_S4096x1024_S4096x1024_0_0
abbrev biasRect : Rect S1x4096 := Rect.unit (s := S1x4096) ![0, 0] S1x4096.size inb_S1x4096_S1x4096_0_0

/-- The new cell-state block from the six blocks handed to the body: its one store, of the whole block. -/
def cellOut (x0 x1 : Vec F S256x1024 .bf16) (x2 x3 : Vec F S4096x1024 .bf16) (x4 : Vec F S1x4096 .f32) (x5 : Vec F S256x1024 .f32) : Vec F S256x1024 .f32 :=
  View.canon [⟨rowsRect, k0_pay2 (View.ld x0 rowsRect) (View.ld x1 rowsRect) (View.ld x2 weightRect) (View.ld x3 weightRect) (View.ld x4 biasRect) (View.ld x5 rowsRect)⟩]

/-- The new hidden-state block, likewise. -/
def hiddenOut (x0 x1 : Vec F S256x1024 .bf16) (x2 x3 : Vec F S4096x1024 .bf16) (x4 : Vec F S1x4096 .f32) (x5 : Vec F S256x1024 .f32) : Vec F S256x1024 .f32 :=
  View.canon [⟨rowsRect, k0_pay3 (View.ld x0 rowsRect) (View.ld x1 rowsRect) (View.ld x2 weightRect) (View.ld x3 weightRect) (View.ld x4 biasRect) (View.ld x5 rowsRect)⟩]

/-- One store of the whole block covers the block. -/
theorem whole_store_covers (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

end Cert.Kernel.Region

end
-- ==== Proof.RegionRunK.lean ====
/-
  The run of the LSTM-cell region and the frame claim, at any float instance.

  The body, handed whole staging buffers — the six inputs' at known contents, the two outputs' at anything —
  runs to the end and leaves the inputs' as they were and each output's at its function of the inputs'
  (`cellOut`, `hiddenOut`): it loads the six input blocks, loads each output block (the value is not used) and
  stores each output block whole. The proof data of the pipeline says so at every grid point, with each
  input's buffer holding its block of the array as the region found it; the library's launch theorem then
  gives the run of @main, and the frame claim follows.
-/
import proofs.«165003_j10136122819072_2_alg».proof.Proof.RegionEntryK

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run -/

set_option maxHeartbeats 1000000 in
/-- The body on whole staging buffers: inputs at `x0 … x5`, outputs at anything; it ends with the inputs
    unchanged, the new cell state in the seventh buffer and the new hidden state in the eighth. -/
theorem body_run (c : Dev nD) (E : Set ℕ) (i : grid0.Coords)
    (arg1 : Memref sig .tc .vmem S256x1024 .bf16) (harg1 : arg1.IsWhole) (arg2 : Memref sig .tc .vmem S256x1024 .bf16) (harg2 : arg2.IsWhole)
    (arg3 : Memref sig .tc .vmem S4096x1024 .bf16) (harg3 : arg3.IsWhole) (arg4 : Memref sig .tc .vmem S4096x1024 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (x0 x1 : Vec F S256x1024 .bf16) (x2 x3 : Vec F S4096x1024 .bf16) (x4 : Vec F S1x4096 .f32) (x5 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (cellOut x0 x1 x2 x3 x4 x5) ∗ owns (c : Thread nD τ) arg8 fullShare (hiddenOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

/-! ## The pipeline's proof data -/

/-- On core `c`: the arrays as the region finds them; after the body at point `t` each input's buffer at its
    block and each output's at its function of the six input blocks; nothing else held, nothing owed. -/
def pipeData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellOut (blockAt m c 0 t) (blockAt m c 1 t) (blockAt m c 2 t) (blockAt m c 3 t) (blockAt m c 4 t) (blockAt m c 5 t)
    | ⟨7, _⟩ => hiddenOut (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (pipeData m 0 c).A w = entry m c (Pipeline.arrRef spec0 w) := by
  dsimp only [pipeData]

theorem after_in0 (c : Dev nD) (t : Fin cfg0.N) : (pipeData m 0 c).after 0 t = blockAt m c 0 t := by dsimp only [pipeData]
theorem after_in1 (c : Dev nD) (t : Fin cfg0.N) : (pipeData m 0 c).after 1 t = blockAt m c 1 t := by dsimp only [pipeData]
theorem after_in2 (c : Dev nD) (t : Fin cfg0.N) : (pipeData m 0 c).after 2 t = blockAt m c 2 t := by dsimp only [pipeData]
theorem after_in3 (c : Dev nD) (t : Fin cfg0.N) : (pipeData m 0 c).after 3 t = blockAt m c 3 t := by dsimp only [pipeData]
theorem after_in4 (c : Dev nD) (t : Fin cfg0.N) : (pipeData m 0 c).after 4 t = blockAt m c 4 t := by dsimp only [pipeData]
theorem after_in5 (c : Dev nD) (t : Fin cfg0.N) : (pipeData m 0 c).after 5 t = blockAt m c 5 t := by dsimp only [pipeData]
theorem after_cell (c : Dev nD) (t : Fin cfg0.N) : (pipeData m 0 c).after 6 t = cellOut (blockAt m c 0 t) (blockAt m c 1 t) (blockAt m c 2 t) (blockAt m c 3 t) (blockAt m c 4 t) (blockAt m c 5 t) := by dsimp only [pipeData]
theorem after_hidden (c : Dev nD) (t : Fin cfg0.N) : (pipeData m 0 c).after 7 t = hiddenOut (blockAt m c 0 t) (blockAt m c 1 t) (blockAt m c 2 t) (blockAt m c 3 t) (blockAt m c 4 t) (blockAt m c 5 t) := by dsimp only [pipeData]

theorem before_in0 (c : Dev nD) (t : Fin cfg0.N) (d) : (pipeData m 0 c).before 0 t d = blockAt m c 0 t :=
  staged_in0 m (pipeData m 0 c) (arrays_eq m c 0) (after_in0 m c) t d
theorem before_in1 (c : Dev nD) (t : Fin cfg0.N) (d) : (pipeData m 0 c).before 1 t d = blockAt m c 1 t :=
  staged_in1 m (pipeData m 0 c) (arrays_eq m c 1) (after_in1 m c) t d
theorem before_in2 (c : Dev nD) (t : Fin cfg0.N) (d) : (pipeData m 0 c).before 2 t d = blockAt m c 2 t :=
  staged_in2 m (pipeData m 0 c) (arrays_eq m c 2) (after_in2 m c) t d
theorem before_in3 (c : Dev nD) (t : Fin cfg0.N) (d) : (pipeData m 0 c).before 3 t d = blockAt m c 3 t :=
  staged_in3 m (pipeData m 0 c) (arrays_eq m c 3) (after_in3 m c) t d
theorem before_in4 (c : Dev nD) (t : Fin cfg0.N) (d) : (pipeData m 0 c).before 4 t d = blockAt m c 4 t :=
  staged_in4 m (pipeData m 0 c) (arrays_eq m c 4) (after_in4 m c) t d
theorem before_in5 (c : Dev nD) (t : Fin cfg0.N) (d) : (pipeData m 0 c).before 5 t d = blockAt m c 5 t :=
  staged_in5 m (pipeData m 0 c) (arrays_eq m c 5) (after_in5 m c) t d

/-! ## The body obligation -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d))
    ∗ (∃ d, owns (c : Thread nD τ) (st0_2 t) fullShare ((pipeData m 0 c).before 2 t d))
    ∗ (∃ d, owns (c : Thread nD τ) (st0_3 t) fullShare ((pipeData m 0 c).before 3 t d))
    ∗ (∃ d, owns (c : Thread nD τ) (st0_4 t) fullShare ((pipeData m 0 c).before 4 t d))
    ∗ (∃ d, owns (c : Thread nD τ) (st0_5 t) fullShare ((pipeData m 0 c).before 5 t d))
    ∗ (∃ d, owns (c : Thread nD τ) (st0_6 t) fullShare ((pipeData m 0 c).before 6 t d))
    ∗ (∃ d, owns (c : Thread nD τ) (st0_7 t) fullShare ((pipeData m 0 c).before 7 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t)
    ∗ owns (c : Thread nD τ) (st0_2 t) fullShare ((pipeData m 0 c).after 2 t)
    ∗ owns (c : Thread nD τ) (st0_3 t) fullShare ((pipeData m 0 c).after 3 t)
    ∗ owns (c : Thread nD τ) (st0_4 t) fullShare ((pipeData m 0 c).after 4 t)
    ∗ owns (c : Thread nD τ) (st0_5 t) fullShare ((pipeData m 0 c).after 5 t)
    ∗ owns (c : Thread nD τ) (st0_6 t) fullShare ((pipeData m 0 c).after 6 t)
    ∗ owns (c : Thread nD τ) (st0_7 t) fullShare ((pipeData m 0 c).after 7 t))

/-- The body at any point: the inputs' buffers hold their blocks, so `body_run` applies; the rest passes
    through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (pipeData m 0 c).Φ t.succ = (pipeData m 0 c).Φ t.castSucc from rfl,
    show (pipeData m 0 c).owesAt () t.succ = (pipeData m 0 c).owesAt () t.castSucc from rfl,
    after_in0, after_in1, after_in2, after_in3, after_in4, after_in5, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pipeData (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault, every array of the region ending at what
    the proof data computes and every other unscoped buffer as the region found it. -/
theorem region_run : θ_run defs (onTc (τ := τ) (main (F := F))) (s₀ m ρ) (Pipeline.FramePost cfgs (pipeData m) 0 (entry m)) :=
  Pipeline.θ_run_frame cfgs (pipeData m) (0 : Fin 1) launch0 defs₀ Variants.none m ρ main
    (hbody := fun c => (body_obligation m c).loose) (hshare := fun c => (pipeData m 0 c).share_full fun _ => rfl)
    (howed := fun _ _ => rfl) (V := entry m) (hmain := main_to_region m Variants.none) (hA := arrays_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  args_kept m ρ (pipeData m) (arrays_eq m) (region_run m ρ)

end Cert.Kernel.Region

end
-- ==== Proof.RegionEntryKI.lean ====
/-
  The frame of the LSTM-cell program, at any float instance.

  @main first runs sixteen host operations (eight casts of the gate weights, two joins of four weight
  matrices each along the rows, two joins of the four bias vectors, their sum, a reshape of that sum to a
  row, and casts of the input and of the hidden state), then one region over a grid of sixteen points.
  At point t the body is handed rows 256·t … 256·t+255 of the input, of the hidden state and of the cell
  state, both joined weight matrices and the bias row whole, and two output blocks of 256 rows; it loads
  them all, computes, and stores both output blocks whole.

  Here: the contents every array has when the region is entered (the fold of the host operations over the
  launch contents), that no host operation writes an argument array, what the body leaves in each output
  block as a function of the blocks it was handed, the body's run, and from these the region's run and the
  frame claim: the program terminates without a fault and every argument array ends as launched.
-/
import proofs.«165003_j10136122819072_2_alg».proof.Proof.Gen.KernelIdeal.Launch
import proofs.«165003_j10136122819072_2_alg».proof.Proof.Gen.KernelIdeal.Skeleton
import proofs.«165003_j10136122819072_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- Core `c`'s buffers when the region is entered: the launch contents after the sixteen host operations. -/
abbrev entry (c : Dev nD) (b : Ref sig .tc) : Buf (Elt F) ((c : Thread nD τ).loc b) :=
  StableHlo.after hostOps0 (fun b => m (c, b)) b

/-- No host operation allocates a buffer. -/
theorem hostOps_fresh : (hostOps0 : List (HloOp τ sig (Elt F))).Forall fun op => op.fresh = ∅ := by
  simp only [List.Forall]; repeat' constructor

/-- @main is the host operations followed by the region, so the region starts from `entry`. -/
theorem main_to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps_fresh main_chain

/-- Each host operation writes exactly its result buffer, and no result buffer is an argument array:
    an argument array is found by the region as launched. -/
local macro "arg_untouched" : tactic => `(tactic| (
  refine StableHlo.after_of_forall_not_mem (b := Proc.devRef .tc _) _ _ (List.forall_iff_forall_mem.mp ?_)
  simp only [hostOps0, List.Forall, StableHlo.unary_writes, StableHlo.nary_writes, StableHlo.binary_writes,
    StableHlo.reshape_writes, Finset.mem_singleton]
  repeat' apply And.intro
  all_goals exact StableHlo.devRef_ne_of_ne (by decide)))

theorem entry_arg0 (c : Dev nD) : entry m c main_arg0 = m ((c : Thread nD τ).loc main_arg0) := by arg_untouched
theorem entry_arg1 (c : Dev nD) : entry m c main_arg1 = m ((c : Thread nD τ).loc main_arg1) := by arg_untouched
theorem entry_arg2 (c : Dev nD) : entry m c main_arg2 = m ((c : Thread nD τ).loc main_arg2) := by arg_untouched
theorem entry_arg3 (c : Dev nD) : entry m c main_arg3 = m ((c : Thread nD τ).loc main_arg3) := by arg_untouched
theorem entry_arg4 (c : Dev nD) : entry m c main_arg4 = m ((c : Thread nD τ).loc main_arg4) := by arg_untouched
theorem entry_arg5 (c : Dev nD) : entry m c main_arg5 = m ((c : Thread nD τ).loc main_arg5) := by arg_untouched
theorem entry_arg6 (c : Dev nD) : entry m c main_arg6 = m ((c : Thread nD τ).loc main_arg6) := by arg_untouched
theorem entry_arg7 (c : Dev nD) : entry m c main_arg7 = m ((c : Thread nD τ).loc main_arg7) := by arg_untouched
theorem entry_arg8 (c : Dev nD) : entry m c main_arg8 = m ((c : Thread nD τ).loc main_arg8) := by arg_untouched
theorem entry_arg9 (c : Dev nD) : entry m c main_arg9 = m ((c : Thread nD τ).loc main_arg9) := by arg_untouched
theorem entry_arg10 (c : Dev nD) : entry m c main_arg10 = m ((c : Thread nD τ).loc main_arg10) := by arg_untouched
theorem entry_arg11 (c : Dev nD) : entry m c main_arg11 = m ((c : Thread nD τ).loc main_arg11) := by arg_untouched
theorem entry_arg12 (c : Dev nD) : entry m c main_arg12 = m ((c : Thread nD τ).loc main_arg12) := by arg_untouched
theorem entry_arg13 (c : Dev nD) : entry m c main_arg13 = m ((c : Thread nD τ).loc main_arg13) := by arg_untouched
theorem entry_arg14 (c : Dev nD) : entry m c main_arg14 = m ((c : Thread nD τ).loc main_arg14) := by arg_untouched
theorem entry_arg15 (c : Dev nD) : entry m c main_arg15 = m ((c : Thread nD τ).loc main_arg15) := by arg_untouched
theorem entry_arg16 (c : Dev nD) : entry m c main_arg16 = m ((c : Thread nD τ).loc main_arg16) := by arg_untouched
theorem entry_arg17 (c : Dev nD) : entry m c main_arg17 = m ((c : Thread nD τ).loc main_arg17) := by arg_untouched
theorem entry_arg18 (c : Dev nD) : entry m c main_arg18 = m ((c : Thread nD τ).loc main_arg18) := by arg_untouched

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's current staging buffer holds its block at every point, fetched there or not. -/
theorem staged_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, fetched there or not. -/
theorem staged_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, fetched there or not. -/
theorem staged_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, fetched there or not. -/
theorem staged_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's current staging buffer holds its block at every point, fetched there or not. -/
theorem staged_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's current staging buffer holds its block at every point, fetched there or not. -/
theorem staged_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- In a final state where every array of the region is at what the proof data computes and every other
    buffer is as the region found it, each argument array is as launched. The cell state is the one argument a
    window stages (an input window: never written back); the others are outside the region. -/
theorem args_kept_at (pd : (p : Fin 1) → (c : Dev nD) → Dat τ (Elt F) Unit ℕ (UR sig nD τ) ℕ (cfgs p) c)
    (hA : ∀ c w, (pd 0 c).A w = entry m c (Pipeline.arrRef spec0 w))
    (r : PUnit × MemSt nD τ sig (Elt F)) (h : Pipeline.FramePost cfgs pd 0 (entry m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18) :=
  ⟨((h c).2 main_arg0 (Pipeline.mem_restRefs_of main_arg0 (by decide) (by decide))).trans (entry_arg0 m c),
    ((h c).1 5).trans (((pd 0 c).arrAt_in 5 rfl _).trans ((hA c 5).trans (entry_arg1 m c))),
    ((h c).2 main_arg2 (Pipeline.mem_restRefs_of main_arg2 (by decide) (by decide))).trans (entry_arg2 m c),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- So a run of @main to such states is a run to states with every argument array as launched. -/
theorem args_kept (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_kept_at m pd hA r h c) h

/-! ## What the body leaves in the two output blocks -/

/-- A whole block of 256 rows, the whole of a joined weight matrix, the whole bias row. -/
abbrev rowsRect : Rect S256x1024 := Rect.unit (s := S256x1024) ![0, 0] S256x1024.size inb_S256x1024_S256x1024_0_0
abbrev weightRect : Rect S4096x1024 := Rect.unit (s := S4096x1024) ![0, 0] S4096x1024.size inb_S4096x1024_S4096x1024_0_0
abbrev biasRect : Rect S1x4096 := Rect.unit (s := S1x4096) ![0, 0] S1x4096.size inb_S1x4096_S1x4096_0_0

/-- The new cell-state block from the six blocks handed to the body: its one store, of the whole block. -/
def cellOut (x0 x1 : Vec F S256x1024 .bf16) (x2 x3 : Vec F S4096x1024 .bf16) (x4 : Vec F S1x4096 .f32) (x5 : Vec F S256x1024 .f32) : Vec F S256x1024 .f32 :=
  View.canon [⟨rowsRect, k0_pay2 (View.ld x0 rowsRect) (View.ld x1 rowsRect) (View.ld x2 weightRect) (View.ld x3 weightRect) (View.ld x4 biasRect) (View.ld x5 rowsRect)⟩]

/-- The new hidden-state block, likewise. -/
def hiddenOut (x0 x1 : Vec F S256x1024 .bf16) (x2 x3 : Vec F S4096x1024 .bf16) (x4 : Vec F S1x4096 .f32) (x5 : Vec F S256x1024 .f32) : Vec F S256x1024 .f32 :=
  View.canon [⟨rowsRect, k0_pay3 (View.ld x0 rowsRect) (View.ld x1 rowsRect) (View.ld x2 weightRect) (View.ld x3 weightRect) (View.ld x4 biasRect) (View.ld x5 rowsRect)⟩]

/-- One store of the whole block covers the block. -/
theorem whole_store_covers (p0 : Vec F S256x1024 .f32) (y : S256x1024.Idx) :
    ∃ pc ∈ ([⟨rowsRect, p0⟩] : List (View.Piece (Elt F) S256x1024 .f32)), y ∈ pc.1.set :=
  View.cover_of_tiled [⟨rowsRect, p0⟩] S256x1024.size (by rfl) y

end Cert.KernelIdeal.Region

end
-- ==== Proof.RegionRunKI.lean ====
/-
  The run of the LSTM-cell region and the frame claim, at any float instance.

  The body, handed whole staging buffers — the six inputs' at known contents, the two outputs' at anything —
  runs to the end and leaves the inputs' as they were and each output's at its function of the inputs'
  (`cellOut`, `hiddenOut`): it loads the six input blocks, loads each output block (the value is not used) and
  stores each output block whole. The proof data of the pipeline says so at every grid point, with each
  input's buffer holding its block of the array as the region found it; the library's launch theorem then
  gives the run of @main, and the frame claim follows.
-/
import proofs.«165003_j10136122819072_2_alg».proof.Proof.RegionEntryKI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's run -/

set_option maxHeartbeats 1000000 in
/-- The body on whole staging buffers: inputs at `x0 … x5`, outputs at anything; it ends with the inputs
    unchanged, the new cell state in the seventh buffer and the new hidden state in the eighth. -/
theorem body_run (c : Dev nD) (E : Set ℕ) (i : grid0.Coords)
    (arg1 : Memref sig .tc .vmem S256x1024 .bf16) (harg1 : arg1.IsWhole) (arg2 : Memref sig .tc .vmem S256x1024 .bf16) (harg2 : arg2.IsWhole)
    (arg3 : Memref sig .tc .vmem S4096x1024 .bf16) (harg3 : arg3.IsWhole) (arg4 : Memref sig .tc .vmem S4096x1024 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole) (arg8 : Memref sig .tc .vmem S256x1024 .f32) (harg8 : arg8.IsWhole)
    (x0 x1 : Vec F S256x1024 .bf16) (x2 x3 : Vec F S4096x1024 .bf16) (x4 : Vec F S1x4096 .f32) (x5 : Vec F S256x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (cellOut x0 x1 x2 x3 x4 x5) ∗ owns (c : Thread nD τ) arg8 fullShare (hiddenOut x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  iexists _; isplitr
  swap; · iexact H7
  ipureintro
  exact View.read_writes_eq_canon _ _ _ (whole_store_covers _)

/-! ## The pipeline's proof data -/

/-- On core `c`: the arrays as the region finds them; after the body at point `t` each input's buffer at its
    block and each output's at its function of the six input blocks; nothing else held, nothing owed. -/
def pipeData (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => cellOut (blockAt m c 0 t) (blockAt m c 1 t) (blockAt m c 2 t) (blockAt m c 3 t) (blockAt m c 4 t) (blockAt m c 5 t)
    | ⟨7, _⟩ => hiddenOut (blockAt m c 0 t) (blockAt m c 1 t) (blockAt m c 2 t) (blockAt m c 3 t) (blockAt m c 4 t) (blockAt m c 5 t)
  Φ _ := Pipeline.ΦA spec0 c
  q _ := fullShare
  owed _ := 0

theorem arrays_eq (c : Dev nD) (w : Fin cfg0.W) : (pipeData m 0 c).A w = entry m c (Pipeline.arrRef spec0 w) := by
  dsimp only [pipeData]

theorem after_in0 (c : Dev nD) (t : Fin cfg0.N) : (pipeData m 0 c).after 0 t = blockAt m c 0 t := by dsimp only [pipeData]
theorem after_in1 (c : Dev nD) (t : Fin cfg0.N) : (pipeData m 0 c).after 1 t = blockAt m c 1 t := by dsimp only [pipeData]
theorem after_in2 (c : Dev nD) (t : Fin cfg0.N) : (pipeData m 0 c).after 2 t = blockAt m c 2 t := by dsimp only [pipeData]
theorem after_in3 (c : Dev nD) (t : Fin cfg0.N) : (pipeData m 0 c).after 3 t = blockAt m c 3 t := by dsimp only [pipeData]
theorem after_in4 (c : Dev nD) (t : Fin cfg0.N) : (pipeData m 0 c).after 4 t = blockAt m c 4 t := by dsimp only [pipeData]
theorem after_in5 (c : Dev nD) (t : Fin cfg0.N) : (pipeData m 0 c).after 5 t = blockAt m c 5 t := by dsimp only [pipeData]
theorem after_cell (c : Dev nD) (t : Fin cfg0.N) : (pipeData m 0 c).after 6 t = cellOut (blockAt m c 0 t) (blockAt m c 1 t) (blockAt m c 2 t) (blockAt m c 3 t) (blockAt m c 4 t) (blockAt m c 5 t) := by dsimp only [pipeData]
theorem after_hidden (c : Dev nD) (t : Fin cfg0.N) : (pipeData m 0 c).after 7 t = hiddenOut (blockAt m c 0 t) (blockAt m c 1 t) (blockAt m c 2 t) (blockAt m c 3 t) (blockAt m c 4 t) (blockAt m c 5 t) := by dsimp only [pipeData]

theorem before_in0 (c : Dev nD) (t : Fin cfg0.N) (d) : (pipeData m 0 c).before 0 t d = blockAt m c 0 t :=
  staged_in0 m (pipeData m 0 c) (arrays_eq m c 0) (after_in0 m c) t d
theorem before_in1 (c : Dev nD) (t : Fin cfg0.N) (d) : (pipeData m 0 c).before 1 t d = blockAt m c 1 t :=
  staged_in1 m (pipeData m 0 c) (arrays_eq m c 1) (after_in1 m c) t d
theorem before_in2 (c : Dev nD) (t : Fin cfg0.N) (d) : (pipeData m 0 c).before 2 t d = blockAt m c 2 t :=
  staged_in2 m (pipeData m 0 c) (arrays_eq m c 2) (after_in2 m c) t d
theorem before_in3 (c : Dev nD) (t : Fin cfg0.N) (d) : (pipeData m 0 c).before 3 t d = blockAt m c 3 t :=
  staged_in3 m (pipeData m 0 c) (arrays_eq m c 3) (after_in3 m c) t d
theorem before_in4 (c : Dev nD) (t : Fin cfg0.N) (d) : (pipeData m 0 c).before 4 t d = blockAt m c 4 t :=
  staged_in4 m (pipeData m 0 c) (arrays_eq m c 4) (after_in4 m c) t d
theorem before_in5 (c : Dev nD) (t : Fin cfg0.N) (d) : (pipeData m 0 c).before 5 t d = blockAt m c 5 t :=
  staged_in5 m (pipeData m 0 c) (arrays_eq m c 5) (after_in5 m c) t d

/-! ## The body obligation -/

/-- What the body is called with at point `t`, the windows one by one, -/
def bodyPre (c : Dev nD) (t : Fin cfg0.N) : sProp 𝕄 :=
  iprop((pipeData m 0 c).Φ t.castSucc ∗ (pipeData m 0 c).owesAt () t.castSucc
    ∗ (∃ d, owns (c : Thread nD τ) (st0_0 t) fullShare ((pipeData m 0 c).before 0 t d))
    ∗ (∃ d, owns (c : Thread nD τ) (st0_1 t) fullShare ((pipeData m 0 c).before 1 t d))
    ∗ (∃ d, owns (c : Thread nD τ) (st0_2 t) fullShare ((pipeData m 0 c).before 2 t d))
    ∗ (∃ d, owns (c : Thread nD τ) (st0_3 t) fullShare ((pipeData m 0 c).before 3 t d))
    ∗ (∃ d, owns (c : Thread nD τ) (st0_4 t) fullShare ((pipeData m 0 c).before 4 t d))
    ∗ (∃ d, owns (c : Thread nD τ) (st0_5 t) fullShare ((pipeData m 0 c).before 5 t d))
    ∗ (∃ d, owns (c : Thread nD τ) (st0_6 t) fullShare ((pipeData m 0 c).before 6 t d))
    ∗ (∃ d, owns (c : Thread nD τ) (st0_7 t) fullShare ((pipeData m 0 c).before 7 t d)))

/-- and what it returns. -/
def bodyPost (c : Dev nD) (t : Fin cfg0.N) : sProp 𝕄 :=
  iprop((pipeData m 0 c).Φ t.succ ∗ (pipeData m 0 c).owesAt () t.succ
    ∗ owns (c : Thread nD τ) (st0_0 t) fullShare ((pipeData m 0 c).after 0 t)
    ∗ owns (c : Thread nD τ) (st0_1 t) fullShare ((pipeData m 0 c).after 1 t)
    ∗ owns (c : Thread nD τ) (st0_2 t) fullShare ((pipeData m 0 c).after 2 t)
    ∗ owns (c : Thread nD τ) (st0_3 t) fullShare ((pipeData m 0 c).after 3 t)
    ∗ owns (c : Thread nD τ) (st0_4 t) fullShare ((pipeData m 0 c).after 4 t)
    ∗ owns (c : Thread nD τ) (st0_5 t) fullShare ((pipeData m 0 c).after 5 t)
    ∗ owns (c : Thread nD τ) (st0_6 t) fullShare ((pipeData m 0 c).after 6 t)
    ∗ owns (c : Thread nD τ) (st0_7 t) fullShare ((pipeData m 0 c).after 7 t))

/-- The body at any point: the inputs' buffers hold their blocks, so `body_run` applies; the rest passes
    through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (pipeData m 0 c).Φ t.succ = (pipeData m 0 c).Φ t.castSucc from rfl,
    show (pipeData m 0 c).owesAt () t.succ = (pipeData m 0 c).owesAt () t.castSucc from rfl,
    after_in0, after_in1, after_in2, after_in3, after_in4, after_in5, after_cell, after_hidden]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c Set.univ _ _ _ _ _ _ _ _ _ _ _ _ _ _ _ _ _ (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (pipeData (F := F) m 0 c) (defs₀ (F := F)) Variants.none () Set.univ := fun t => by
  rw [bigSep_W0, bigSep_W0]
  exact body_at m c t

/-! ## The run and the frame -/

set_option backward.isDefEq.respectTransparency.types false in
/-- Every weakly fair execution of @main terminates without a fault, every array of the region ending at what
    the proof data computes and every other unscoped buffer as the region found it. -/
theorem region_run : θ_run defs (onTc (τ := τ) (main (F := F))) (s₀ m ρ) (Pipeline.FramePost cfgs (pipeData m) 0 (entry m)) :=
  Pipeline.θ_run_frame cfgs (pipeData m) (0 : Fin 1) launch0 defs₀ Variants.none m ρ main
    (hbody := fun c => (body_obligation m c).loose) (hshare := fun c => (pipeData m 0 c).share_full fun _ => rfl)
    (howed := fun _ _ => rfl) (V := entry m) (hmain := main_to_region m Variants.none) (hA := arrays_eq m) (hΦ := fun _ _ => rfl)

/-- The frame claim: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  args_kept m ρ (pipeData m) (arrays_eq m) (region_run m ρ)

end Cert.KernelIdeal.Region

end
-- ==== Proof.EntryValues.lean ====
/-
  What the region finds in the five arrays the host operations write, on the extended reals.

  A change of float format is the identity on the extended reals, so the cast input and the cast hidden state
  are the argument arrays themselves, and each joined weight matrix is the four gates' matrices joined along
  the rows (forget, input, output, candidate: 1024 rows each). The bias row is the sum of the two joined bias
  vectors, reshaped from length 4096 to 1×4096.
-/
import proofs.«165003_j10136122819072_2_alg».proof.Proof.RegionRunKI
import Idealize.ShloMosaic.Lib.StableHlo.Run
import Idealize.ShloMosaic.PureOps.Ideal
import Idealize.ShloMosaic.Lib.Pipeline.Value

noncomputable section

namespace Cert.KernelIdeal.Region

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The four input-side weight matrices joined along the rows. -/
def joinedWx (c : Dev nD) : S4096x1024.Idx → EReal :=
  concatenate S4096x1024 0 [⟨S1024x1024, (m ((c : Thread nD τ).loc main_arg3) : S1024x1024.Idx → EReal)⟩, ⟨S1024x1024, (m ((c : Thread nD τ).loc main_arg7) : S1024x1024.Idx → EReal)⟩,
    ⟨S1024x1024, (m ((c : Thread nD τ).loc main_arg11) : S1024x1024.Idx → EReal)⟩, ⟨S1024x1024, (m ((c : Thread nD τ).loc main_arg15) : S1024x1024.Idx → EReal)⟩]
    concatenates_S1024x1024_S1024x1024_S1024x1024_S1024x1024_S4096x1024_d0

/-- The four hidden-side weight matrices joined along the rows. -/
def joinedWh (c : Dev nD) : S4096x1024.Idx → EReal :=
  concatenate S4096x1024 0 [⟨S1024x1024, (m ((c : Thread nD τ).loc main_arg5) : S1024x1024.Idx → EReal)⟩, ⟨S1024x1024, (m ((c : Thread nD τ).loc main_arg9) : S1024x1024.Idx → EReal)⟩,
    ⟨S1024x1024, (m ((c : Thread nD τ).loc main_arg13) : S1024x1024.Idx → EReal)⟩, ⟨S1024x1024, (m ((c : Thread nD τ).loc main_arg17) : S1024x1024.Idx → EReal)⟩]
    concatenates_S1024x1024_S1024x1024_S1024x1024_S1024x1024_S4096x1024_d0

/-- The four input-side bias vectors joined. -/
def joinedBx (c : Dev nD) : S4096.Idx → EReal :=
  concatenate S4096 0 [⟨S1024, (m ((c : Thread nD τ).loc main_arg4) : S1024.Idx → EReal)⟩, ⟨S1024, (m ((c : Thread nD τ).loc main_arg8) : S1024.Idx → EReal)⟩,
    ⟨S1024, (m ((c : Thread nD τ).loc main_arg12) : S1024.Idx → EReal)⟩, ⟨S1024, (m ((c : Thread nD τ).loc main_arg16) : S1024.Idx → EReal)⟩]
    concatenates_S1024_S1024_S1024_S1024_S4096_d0

/-- The four hidden-side bias vectors joined. -/
def joinedBh (c : Dev nD) : S4096.Idx → EReal :=
  concatenate S4096 0 [⟨S1024, (m ((c : Thread nD τ).loc main_arg6) : S1024.Idx → EReal)⟩, ⟨S1024, (m ((c : Thread nD τ).loc main_arg10) : S1024.Idx → EReal)⟩,
    ⟨S1024, (m ((c : Thread nD τ).loc main_arg14) : S1024.Idx → EReal)⟩, ⟨S1024, (m ((c : Thread nD τ).loc main_arg18) : S1024.Idx → EReal)⟩]
    concatenates_S1024_S1024_S1024_S1024_S4096_d0

/-- The cast input is the input. -/
theorem entry_input (c : Dev nD) : (entry (F := Ideal) m c main_v14 : S4096x1024.Idx → EReal) = m ((c : Thread nD τ).loc main_arg0) := by
  dsimp only [entry, hostOps0]; after_results_simp; rfl

/-- The cast hidden state is the hidden state. -/
theorem entry_hidden (c : Dev nD) : (entry (F := Ideal) m c main_v15 : S4096x1024.Idx → EReal) = m ((c : Thread nD τ).loc main_arg2) := by
  dsimp only [entry, hostOps0]; after_results_simp; rfl

/-- The first joined weight matrix. -/
theorem entry_Wx (c : Dev nD) : (entry (F := Ideal) m c main_v4 : S4096x1024.Idx → EReal) = joinedWx m c := by
  dsimp only [entry, hostOps0]; after_results_simp; rfl

/-- The second joined weight matrix. -/
theorem entry_Wh (c : Dev nD) : (entry (F := Ideal) m c main_v9 : S4096x1024.Idx → EReal) = joinedWh m c := by
  dsimp only [entry, hostOps0]; after_results_simp; rfl

/-- The bias row. -/
theorem entry_bias (c : Dev nD) : (entry (F := Ideal) m c main_v13 : S1x4096.Idx → EReal)
    = shapeCast S1x4096 (addf (F := Ideal) (φ := .f32) (joinedBx m c) (joinedBh m c)) shapeCasts_S4096_S1x4096 := by
  dsimp only [entry, hostOps0]; after_results_simp; rfl

end Cert.KernelIdeal.Region

end
-- ==== Proof.CellSpec.lean ====
/-
  The LSTM cell on the extended reals, index by index.

  For a batch row r and a gate unit n (four gates of 1024 units each, laid side by side: forget, input,
  output, candidate), the pre-activation is

      gate r n = (Σₖ x[r,k]·Wx[n,k] + Σₖ h[r,k]·Wh[n,k]) + (bx[n] + bh[n]),

  and for a hidden unit j

      cell'[r,j]   = σ(gate r j)·c[r,j] + tanh(gate r (3072+j))·σ(gate r (1024+j))
      hidden'[r,j] = tanh(cell'[r,j])·σ(gate r (2048+j)),

  with σ x = 1 / (1 + e^(−x)). The weights enter as the two joined matrices Wx, Wh (4096 rows of 1024) and the
  biases as the two joined vectors bx, bh; how they are joined from the four gates' pieces is the same on both
  sides of the certificate and is not opened here.
-/
import Idealize.ShloMosaic.PureOps.Ideal
import Idealize.ShloMosaic.Lib.ValueIdx

noncomputable section

namespace Cert.LstmCell

open Idealize.ShloMosaic Idealize.ShloMosaic.ValueIdx

/-- An a×b array, and a length-a vector, of extended reals. -/
abbrev Mat (a b : Nat) : Type := (⟨2, ![a, b]⟩ : Shape).Idx → EReal
abbrev Row (a : Nat) : Type := (⟨1, ![a]⟩ : Shape).Idx → EReal

/-- The float pattern of `1.0` denotes the real number one. -/
theorem one_f32 : Ideal.ofBits .f32 0x3F800000#32 = 1 := by
  simp [Ideal.ofBits, Ideal.ieee, -EReal.coe_mul]; norm_num

/-- Unit `j` of gate `g` among the 4096 joined gate units. -/
def unitOf (g : Fin 4) (j : Fin 1024) : Fin 4096 := ⟨1024 * g.val + j.val, by have := g.isLt; have := j.isLt; omega⟩

/-- The pre-activation of gate unit `n` on batch row `r`. -/
def gate (x h Wx Wh : Mat 4096 1024) (bx bh : Row 4096) (r n : Fin 4096) : EReal :=
  ((∑ k : Fin 1024, x (ix2 r k) * Wx (ix2 n k)) + ∑ k : Fin 1024, h (ix2 r k) * Wh (ix2 n k)) + (bx (ix1 n) + bh (ix1 n))

/-- The new cell state at row `r`, unit `j`. -/
def cellAt (x c h Wx Wh : Mat 4096 1024) (bx bh : Row 4096) (r : Fin 4096) (j : Fin 1024) : EReal :=
  Ideal.logistic (gate x h Wx Wh bx bh r (unitOf 0 j)) * c (ix2 r j)
    + Ideal.tanh (gate x h Wx Wh bx bh r (unitOf 3 j)) * Ideal.logistic (gate x h Wx Wh bx bh r (unitOf 1 j))

/-- The new hidden state at row `r`, unit `j`. -/
def hiddenAt (x c h Wx Wh : Mat 4096 1024) (bx bh : Row 4096) (r : Fin 4096) (j : Fin 1024) : EReal :=
  Ideal.tanh (cellAt x c h Wx Wh bx bh r j) * Ideal.logistic (gate x h Wx Wh bx bh r (unitOf 2 j))

/-- The two results as whole arrays. -/
def newCell (x c h Wx Wh : Mat 4096 1024) (bx bh : Row 4096) : Mat 4096 1024 := fun i => cellAt x c h Wx Wh bx bh (i 0) (i 1)
def newHidden (x c h Wx Wh : Mat 4096 1024) (bx bh : Row 4096) : Mat 4096 1024 := fun i => hiddenAt x c h Wx Wh bx bh (i 0) (i 1)

end Cert.LstmCell

end
-- ==== Proof.BodyValue.lean ====
/-
  The body's arithmetic at an index, on the extended reals.

  The body is handed a block of 256 rows of the input (`x0`), of the hidden state (`x1`) and of the cell state
  (`x5`), both joined weight matrices whole (`x2`, `x3`) and the bias row (`x4`). Its gate pre-activations are two
  matrix products into a zero accumulator, added, plus the bias row repeated down the rows:

      pre[p,n] = (Σₖ x0[p,k]·x2[n,k] + Σₖ x1[p,k]·x3[n,k]) + x4[0,n].

  The four gates are the four 1024-column slices of `pre`; the stored blocks are
  σ(pre[p,j])·x5[p,j] + tanh(pre[p,3072+j])·σ(pre[p,1024+j]) and tanh of that times σ(pre[p,2048+j]).
-/
import proofs.«165003_j10136122819072_2_alg».proof.Proof.Gen.KernelIdeal.Skeleton
import proofs.«165003_j10136122819072_2_alg».proof.Proof.CellSpec
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Cert.LstmCell
open Idealize.ShloMosaic Idealize.ShloMosaic.ValueIdx

local notation "𝒟" => dot_S256x1024_S4096x1024_S256x4096_1_1_0_0_n_n

/-- Where the product's two operands are read for the result at `i` and contracted position `q`: the left
    operand at (row of `i`, `q`), the right operand at (column of `i`, `q`). -/
theorem left_row (i : S256x4096.Idx) (q : (𝒟).contr.Idx) : ((𝒟).lhsIdx i q 0).val = (i 0).val := by
  unfold DotDims.lhsIdx
  rw [dif_neg (show ¬(0 : Fin S256x1024.rank) ∈ (𝒟).lhsBatch by decide), dif_pos (show (0 : Fin S256x1024.rank) ∈ (𝒟).lhsNonContracting by decide)]
  rfl
theorem left_pos (i : S256x4096.Idx) (q : (𝒟).contr.Idx) : ((𝒟).lhsIdx i q 1).val = (q ⟨0, by decide⟩).val :=
  (𝒟).lhsIdx_val_of_single rfl i q
theorem right_row (i : S256x4096.Idx) (q : (𝒟).contr.Idx) : ((𝒟).rhsIdx i q 0).val = (i 1).val := by
  unfold DotDims.rhsIdx
  rw [dif_neg (show ¬(0 : Fin S4096x1024.rank) ∈ (𝒟).rhsBatch by decide), dif_pos (show (0 : Fin S4096x1024.rank) ∈ (𝒟).rhsNonContracting by decide)]
  rfl
theorem right_pos (i : S256x4096.Idx) (q : (𝒟).contr.Idx) : ((𝒟).rhsIdx i q 1).val = (q ⟨0, by decide⟩).val :=
  (𝒟).rhsIdx_val_of_single rfl i q

/-- One matrix product of the body at an index: a 256×1024 block against a 4096×1024 matrix, both contracted on
    their second axis, into the zero accumulator, is the plain sum over the 1024 contracted positions. -/
theorem product_at (a : FVec Ideal S256x1024 .bf16) (b : FVec Ideal S4096x1024 .bf16) (p : Fin 256) (n : Fin 4096) :
    matmul dot_S256x1024_S4096x1024_S256x4096_1_1_0_0_n_n none a b (constant (F := Ideal) S256x4096 .f32 0x00000000#32) (ix2 p n)
      = ∑ k : Fin 1024, a (ix2 p k) * b (ix2 n k) := by
  refine (Ideal.matmul_constant_zero_apply dot_S256x1024_S4096x1024_S256x4096_1_1_0_0_n_n none a b (ix2 p n)).trans ?_
  rw [← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p n) ((contrEquiv1 dot_S256x1024_S4096x1024_S256x4096_1_1_0_0_n_n 1024 rfl rfl).symm k) = ix2 p k := funext fun d => Fin.ext (by
    match d with
    | ⟨0, _⟩ => exact left_row _ _
    | ⟨1, _⟩ => exact (left_pos _ _).trans hk)
  have er : dot_S256x1024_S4096x1024_S256x4096_1_1_0_0_n_n.rhsIdx (ix2 p n) ((contrEquiv1 dot_S256x1024_S4096x1024_S256x4096_1_1_0_0_n_n 1024 rfl rfl).symm k) = ix2 n k := funext fun d => Fin.ext (by
    match d with
    | ⟨0, _⟩ => exact right_row _ _
    | ⟨1, _⟩ => exact (right_pos _ _).trans hk)
  rw [el, er]

/-- The bias row repeated down 256 rows, at (p, n), is the row at n. -/
theorem bias_at (v : FVec Ideal S1x4096 .f32) (p : Fin 256) (n : Fin 4096) :
    broadcastTo S256x4096 v broadcasts_S1x4096_S256x4096 (ix2 p n) = v (ix2 (0 : Fin 1) n) :=
  broadcastTo_apply v broadcasts_S1x4096_S256x4096 (ix2 p n) (ix2 (0 : Fin 1) n) (fun a => by
    match a with
    | ⟨0, _⟩ => rfl
    | ⟨1, _⟩ => rfl)

/-- The block's gate pre-activation at row `p`, gate unit `n`. -/
def pre (x0 x1 : Vec Ideal S256x1024 .bf16) (x2 x3 : Vec Ideal S4096x1024 .bf16) (x4 : Vec Ideal S1x4096 .f32) (p : Fin 256) (n : Fin 4096) : EReal :=
  ((∑ k : Fin 1024, x0 (ix2 p k) * x2 (ix2 n k)) + ∑ k : Fin 1024, x1 (ix2 p k) * x3 (ix2 n k)) + x4 (ix2 (0 : Fin 1) n)

/-- The body's gate pre-activations, read at an index. -/
theorem gates_at (x0 x1 : Vec Ideal S256x1024 .bf16) (x2 x3 : Vec Ideal S4096x1024 .bf16) (x4 : Vec Ideal S1x4096 .f32) (p : Fin 256) (n : Fin 4096) :
    k0_pay1 (F := Ideal) x0 x1 x2 x3 x4 (ix2 p n) = pre x0 x1 x2 x3 x4 p n := by
  unfold k0_pay1 pre
  simp only [shapeCast_self]
  show (matmul dot_S256x1024_S4096x1024_S256x4096_1_1_0_0_n_n none x0 x2 (constant (F := Ideal) S256x4096 .f32 0x00000000#32) (ix2 p n)
      + matmul dot_S256x1024_S4096x1024_S256x4096_1_1_0_0_n_n none x1 x3 (constant (F := Ideal) S256x4096 .f32 0x00000000#32) (ix2 p n))
      + broadcastTo S256x4096 x4 broadcasts_S1x4096_S256x4096 (ix2 p n) = _
  rw [product_at, product_at, bias_at]

/-! ## The four gates: column slices of the pre-activations -/

/-- Columns 0 … 1023 (the forget gate). -/
theorem forget_slice (v : FVec Ideal S256x4096 .f32) (p : Fin 256) (j : Fin 1024) :
    extractStridedSlice S256x1024 ![0, 0] v slices_S256x4096_o0_0_S256x1024 (ix2 p j) = v (ix2 p (unitOf 0 j)) :=
  extractStridedSlice_apply ![0, 0] v slices_S256x4096_o0_0_S256x1024 (ix2 p j) (ix2 p (unitOf 0 j)) (fun a => by
    match a with
    | ⟨0, _⟩ => show p.val = 0 + p.val; omega
    | ⟨1, _⟩ => show 1024 * 0 + j.val = 0 + j.val; omega)

/-- Columns 1024 … 2047 (the input gate). -/
theorem input_slice (v : FVec Ideal S256x4096 .f32) (p : Fin 256) (j : Fin 1024) :
    extractStridedSlice S256x1024 ![0, 1024] v slices_S256x4096_o0_1024_S256x1024 (ix2 p j) = v (ix2 p (unitOf 1 j)) :=
  extractStridedSlice_apply ![0, 1024] v slices_S256x4096_o0_1024_S256x1024 (ix2 p j) (ix2 p (unitOf 1 j)) (fun a => by
    match a with
    | ⟨0, _⟩ => show p.val = 0 + p.val; omega
    | ⟨1, _⟩ => show 1024 * 1 + j.val = 1024 + j.val; omega)

/-- Columns 2048 … 3071 (the output gate). -/
theorem output_slice (v : FVec Ideal S256x4096 .f32) (p : Fin 256) (j : Fin 1024) :
    extractStridedSlice S256x1024 ![0, 2048] v slices_S256x4096_o0_2048_S256x1024 (ix2 p j) = v (ix2 p (unitOf 2 j)) :=
  extractStridedSlice_apply ![0, 2048] v slices_S256x4096_o0_2048_S256x1024 (ix2 p j) (ix2 p (unitOf 2 j)) (fun a => by
    match a with
    | ⟨0, _⟩ => show p.val = 0 + p.val; omega
    | ⟨1, _⟩ => show 1024 * 2 + j.val = 2048 + j.val; omega)

/-- Columns 3072 … 4095 (the candidate). -/
theorem candidate_slice (v : FVec Ideal S256x4096 .f32) (p : Fin 256) (j : Fin 1024) :
    extractStridedSlice S256x1024 ![0, 3072] v slices_S256x4096_o0_3072_S256x1024 (ix2 p j) = v (ix2 p (unitOf 3 j)) :=
  extractStridedSlice_apply ![0, 3072] v slices_S256x4096_o0_3072_S256x1024 (ix2 p j) (ix2 p (unitOf 3 j)) (fun a => by
    match a with
    | ⟨0, _⟩ => show p.val = 0 + p.val; omega
    | ⟨1, _⟩ => show 1024 * 3 + j.val = 3072 + j.val; omega)

/-! ## The two stored blocks -/

/-- The new cell state of the block at row `p`, unit `j`. -/
def cellBlock (x0 x1 : Vec Ideal S256x1024 .bf16) (x2 x3 : Vec Ideal S4096x1024 .bf16) (x4 : Vec Ideal S1x4096 .f32) (x5 : Vec Ideal S256x1024 .f32)
    (p : Fin 256) (j : Fin 1024) : EReal :=
  Ideal.logistic (pre x0 x1 x2 x3 x4 p (unitOf 0 j)) * x5 (ix2 p j)
    + Ideal.tanh (pre x0 x1 x2 x3 x4 p (unitOf 3 j)) * Ideal.logistic (pre x0 x1 x2 x3 x4 p (unitOf 1 j))

/-- The new hidden state of the block at row `p`, unit `j`. -/
def hiddenBlock (x0 x1 : Vec Ideal S256x1024 .bf16) (x2 x3 : Vec Ideal S4096x1024 .bf16) (x4 : Vec Ideal S1x4096 .f32) (x5 : Vec Ideal S256x1024 .f32)
    (p : Fin 256) (j : Fin 1024) : EReal :=
  Ideal.tanh (cellBlock x0 x1 x2 x3 x4 x5 p j) * Ideal.logistic (pre x0 x1 x2 x3 x4 p (unitOf 2 j))

/-- The first stored value, read at an index: the gates are slices of the pre-activations, and every other
    operation acts entry by entry. -/
theorem cell_at (x0 x1 : Vec Ideal S256x1024 .bf16) (x2 x3 : Vec Ideal S4096x1024 .bf16) (x4 : Vec Ideal S1x4096 .f32) (x5 : Vec Ideal S256x1024 .f32)
    (p : Fin 256) (j : Fin 1024) :
    k0_pay2 (F := Ideal) x0 x1 x2 x3 x4 x5 (ix2 p j) = cellBlock x0 x1 x2 x3 x4 x5 p j := by
  unfold k0_pay2 cellBlock
  show Ideal.logistic (extractStridedSlice S256x1024 ![0, 0] (k0_pay1 (F := Ideal) x0 x1 x2 x3 x4) slices_S256x4096_o0_0_S256x1024 (ix2 p j)) * x5 (ix2 p j)
      + Ideal.tanh (extractStridedSlice S256x1024 ![0, 3072] (k0_pay1 (F := Ideal) x0 x1 x2 x3 x4) slices_S256x4096_o0_3072_S256x1024 (ix2 p j))
        * Ideal.logistic (extractStridedSlice S256x1024 ![0, 1024] (k0_pay1 (F := Ideal) x0 x1 x2 x3 x4) slices_S256x4096_o0_1024_S256x1024 (ix2 p j)) = _
  rw [forget_slice, candidate_slice, input_slice, gates_at, gates_at, gates_at]

/-- The second stored value, read at an index. -/
theorem hidden_at (x0 x1 : Vec Ideal S256x1024 .bf16) (x2 x3 : Vec Ideal S4096x1024 .bf16) (x4 : Vec Ideal S1x4096 .f32) (x5 : Vec Ideal S256x1024 .f32)
    (p : Fin 256) (j : Fin 1024) :
    k0_pay3 (F := Ideal) x0 x1 x2 x3 x4 x5 (ix2 p j) = hiddenBlock x0 x1 x2 x3 x4 x5 p j := by
  unfold k0_pay3 hiddenBlock
  show Ideal.tanh (k0_pay2 (F := Ideal) x0 x1 x2 x3 x4 x5 (ix2 p j))
      * Ideal.logistic (extractStridedSlice S256x1024 ![0, 2048] (k0_pay1 (F := Ideal) x0 x1 x2 x3 x4) slices_S256x4096_o0_2048_S256x1024 (ix2 p j)) = _
  rw [output_slice, gates_at, cell_at]

end Cert.KernelIdeal.BodyValue

end
-- ==== Proof.ResultArrays.lean ====
/-
  From blocks to arrays: the two result arrays of the idealized kernel as whole-array functions of the launch
  contents.

  Grid point t (of sixteen) is handed rows 256·t … 256·t+255 of the input, the hidden state and the cell state,
  both joined weight matrices and the bias row whole, and writes back rows 256·t … 256·t+255 of each result.
  So row p of a block is row 256·t + p of its array, the block's gate pre-activations are the whole-array
  ones on that row, and what point t writes back is block t of the LSTM cell's function of the argument
  arrays. The sixteen blocks cover all 4096 rows (row r lies in block r / 256), so after the run each result
  array is that function.
-/
import proofs.«165003_j10136122819072_2_alg».proof.Proof.EntryValues
import proofs.«165003_j10136122819072_2_alg».proof.Proof.BodyValue

set_option maxRecDepth 16384

noncomputable section

namespace Cert.KernelIdeal.Region

open Cert.KernelIdeal Cert.KernelIdeal.Gen Cert.LstmCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The block index of each window at each of the sixteen points: the row-blocked windows are at block `t`
    along the rows, the whole-array windows at block 0; all at block 0 along the columns. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 16 := lt_of_lt_of_eq t.isLt N_0

/-- Row `p` of block `t`, as a row of the array. -/
def rowOf (t : Fin cfg0.N) (p : Fin 256) : Fin 4096 := ⟨256 * t.val + p.val, by have := point_lt t; have := p.isLt; omega⟩

/-! ## Each block read as part of its array -/

/-- Rows of the input at point `t`: row `p` of the block is row 256·t + p of the array. -/
theorem input_block (c : Dev nD) (t : Fin cfg0.N) (p : Fin 256) (k : Fin 1024) (r : Fin 4096) (hr : r.val = 256 * t.val + p.val) :
    blockAt (F := Ideal) m c 0 t (ix2 p k) = (m ((c : Thread nD τ).loc main_arg0) : S4096x1024.Idx → EReal) (ix2 r k) := by
  show (entry (F := Ideal) m c main_v14 : S4096x1024.Idx → EReal) (((cfg0.win 0).blk t).view.emb (ix2 p k)) = _
  rw [entry_input]
  refine congrArg _ (funext fun a => Fin.ext ?_)
  obtain ⟨e0, e1, -⟩ := block_indices t
  match a with
  | ⟨0, _⟩ => show win0_0.index t (0 : Fin 2) * 256 + 1 * p.val = r.val; omega
  | ⟨1, _⟩ => show win0_0.index t (1 : Fin 2) * 1024 + 1 * k.val = k.val; omega

/-- Rows of the hidden state at point `t`. -/
theorem hidden_block (c : Dev nD) (t : Fin cfg0.N) (p : Fin 256) (k : Fin 1024) (r : Fin 4096) (hr : r.val = 256 * t.val + p.val) :
    blockAt (F := Ideal) m c 1 t (ix2 p k) = (m ((c : Thread nD τ).loc main_arg2) : S4096x1024.Idx → EReal) (ix2 r k) := by
  show (entry (F := Ideal) m c main_v15 : S4096x1024.Idx → EReal) (((cfg0.win 1).blk t).view.emb (ix2 p k)) = _
  rw [entry_hidden]
  refine congrArg _ (funext fun a => Fin.ext ?_)
  obtain ⟨-, -, e0, e1, -⟩ := block_indices t
  match a with
  | ⟨0, _⟩ => show win0_1.index t (0 : Fin 2) * 256 + 1 * p.val = r.val; omega
  | ⟨1, _⟩ => show win0_1.index t (1 : Fin 2) * 1024 + 1 * k.val = k.val; omega

/-- Rows of the cell state at point `t`. -/
theorem cell_block (c : Dev nD) (t : Fin cfg0.N) (p : Fin 256) (k : Fin 1024) (r : Fin 4096) (hr : r.val = 256 * t.val + p.val) :
    blockAt (F := Ideal) m c 5 t (ix2 p k) = (m ((c : Thread nD τ).loc main_arg1) : S4096x1024.Idx → EReal) (ix2 r k) := by
  show (entry (F := Ideal) m c main_arg1 : S4096x1024.Idx → EReal) (((cfg0.win 5).blk t).view.emb (ix2 p k)) = _
  rw [entry_arg1]
  refine congrArg _ (funext fun a => Fin.ext ?_)
  obtain ⟨-, -, -, -, -, -, -, -, -, -, e0, e1, -⟩ := block_indices t
  match a with
  | ⟨0, _⟩ => show win0_5.index t (0 : Fin 2) * 256 + 1 * p.val = r.val; omega
  | ⟨1, _⟩ => show win0_5.index t (1 : Fin 2) * 1024 + 1 * k.val = k.val; omega

/-- The first joined weight matrix is handed over whole at every point. -/
theorem Wx_block (c : Dev nD) (t : Fin cfg0.N) (n : Fin 4096) (k : Fin 1024) :
    blockAt (F := Ideal) m c 2 t (ix2 n k) = joinedWx m c (ix2 n k) := by
  show (entry (F := Ideal) m c main_v4 : S4096x1024.Idx → EReal) (((cfg0.win 2).blk t).view.emb (ix2 n k)) = _
  rw [entry_Wx]
  refine congrArg _ (funext fun a => Fin.ext ?_)
  obtain ⟨-, -, -, -, e0, e1, -⟩ := block_indices t
  match a with
  | ⟨0, _⟩ => show win0_2.index t (0 : Fin 2) * 4096 + 1 * n.val = n.val; omega
  | ⟨1, _⟩ => show win0_2.index t (1 : Fin 2) * 1024 + 1 * k.val = k.val; omega

/-- So is the second. -/
theorem Wh_block (c : Dev nD) (t : Fin cfg0.N) (n : Fin 4096) (k : Fin 1024) :
    blockAt (F := Ideal) m c 3 t (ix2 n k) = joinedWh m c (ix2 n k) := by
  show (entry (F := Ideal) m c main_v9 : S4096x1024.Idx → EReal) (((cfg0.win 3).blk t).view.emb (ix2 n k)) = _
  rw [entry_Wh]
  refine congrArg _ (funext fun a => Fin.ext ?_)
  obtain ⟨-, -, -, -, -, -, e0, e1, -⟩ := block_indices t
  match a with
  | ⟨0, _⟩ => show win0_3.index t (0 : Fin 2) * 4096 + 1 * n.val = n.val; omega
  | ⟨1, _⟩ => show win0_3.index t (1 : Fin 2) * 1024 + 1 * k.val = k.val; omega

/-- The bias row, handed over whole: at column `n` it is the sum of the two joined bias vectors at `n`. -/
theorem bias_block (c : Dev nD) (t : Fin cfg0.N) (n : Fin 4096) :
    blockAt (F := Ideal) m c 4 t (ix2 (0 : Fin 1) n) = joinedBx m c (ix1 n) + joinedBh m c (ix1 n) := by
  show (entry (F := Ideal) m c main_v13 : S1x4096.Idx → EReal) (((cfg0.win 4).blk t).view.emb (ix2 (0 : Fin 1) n)) = _
  rw [entry_bias]
  obtain ⟨-, -, -, -, -, -, -, -, e0, e1, -⟩ := block_indices t
  refine (shapeCast_apply _ shapeCasts_S4096_S1x4096 _ (ix1 n) ?_).trans rfl
  rw [Shape.rowMajor_val_one, Shape.rowMajor_val_two]
  show n.val = (win0_4.index t (0 : Fin 2) * 1 + 1 * 0) * 4096 + (win0_4.index t (1 : Fin 2) * 4096 + 1 * n.val)
  omega

/-! ## The block's arithmetic is the whole arrays' on its rows -/

/-- The block's gate pre-activation at row `p` is the whole-array one at row 256·t + p. -/
theorem gate_block (c : Dev nD) (t : Fin cfg0.N) (p : Fin 256) (n : Fin 4096) :
    BodyValue.pre (blockAt m c 0 t) (blockAt m c 1 t) (blockAt m c 2 t) (blockAt m c 3 t) (blockAt m c 4 t) p n = gate (m ((c : Thread nD τ).loc main_arg0) : S4096x1024.Idx → EReal) (m ((c : Thread nD τ).loc main_arg2) : S4096x1024.Idx → EReal) (joinedWx m c) (joinedWh m c) (joinedBx m c) (joinedBh m c) (rowOf t p) n := by
  unfold BodyValue.pre gate
  rw [bias_block m c t n]
  refine congrArg₂ (· + ·) (congrArg₂ (· + ·) ?_ ?_) rfl
  · exact Finset.sum_congr rfl fun k _ => by rw [input_block m c t p k (rowOf t p) rfl, Wx_block m c t n k]
  · exact Finset.sum_congr rfl fun k _ => by rw [hidden_block m c t p k (rowOf t p) rfl, Wh_block m c t n k]

/-- The block's new cell state at (p, j) is the whole-array one at (256·t + p, j). -/
theorem cell_value (c : Dev nD) (t : Fin cfg0.N) (p : Fin 256) (j : Fin 1024) :
    BodyValue.cellBlock (blockAt m c 0 t) (blockAt m c 1 t) (blockAt m c 2 t) (blockAt m c 3 t) (blockAt m c 4 t) (blockAt m c 5 t) p j = cellAt (m ((c : Thread nD τ).loc main_arg0) : S4096x1024.Idx → EReal) (m ((c : Thread nD τ).loc main_arg1) : S4096x1024.Idx → EReal) (m ((c : Thread nD τ).loc main_arg2) : S4096x1024.Idx → EReal) (joinedWx m c) (joinedWh m c) (joinedBx m c) (joinedBh m c) (rowOf t p) j := by
  unfold BodyValue.cellBlock cellAt
  rw [gate_block m c t p (unitOf 0 j), gate_block m c t p (unitOf 3 j), gate_block m c t p (unitOf 1 j), cell_block m c t p j (rowOf t p) rfl]

/-- The block's new hidden state, likewise. -/
theorem hidden_value (c : Dev nD) (t : Fin cfg0.N) (p : Fin 256) (j : Fin 1024) :
    BodyValue.hiddenBlock (blockAt m c 0 t) (blockAt m c 1 t) (blockAt m c 2 t) (blockAt m c 3 t) (blockAt m c 4 t) (blockAt m c 5 t) p j = hiddenAt (m ((c : Thread nD τ).loc main_arg0) : S4096x1024.Idx → EReal) (m ((c : Thread nD τ).loc main_arg1) : S4096x1024.Idx → EReal) (m ((c : Thread nD τ).loc main_arg2) : S4096x1024.Idx → EReal) (joinedWx m c) (joinedWh m c) (joinedBx m c) (joinedBh m c) (rowOf t p) j := by
  unfold BodyValue.hiddenBlock hiddenAt
  rw [cell_value m c t p j, gate_block m c t p (unitOf 2 j)]

/-! ## What each point writes back -/

/-- The new cell state and the new hidden state as whole arrays of the launch contents. -/
def cellOf (c : Dev nD) : S4096x1024.Idx → EReal := newCell (m ((c : Thread nD τ).loc main_arg0) : S4096x1024.Idx → EReal) (m ((c : Thread nD τ).loc main_arg1) : S4096x1024.Idx → EReal) (m ((c : Thread nD τ).loc main_arg2) : S4096x1024.Idx → EReal) (joinedWx m c) (joinedWh m c) (joinedBx m c) (joinedBh m c)
def hiddenOf (c : Dev nD) : S4096x1024.Idx → EReal := newHidden (m ((c : Thread nD τ).loc main_arg0) : S4096x1024.Idx → EReal) (m ((c : Thread nD τ).loc main_arg1) : S4096x1024.Idx → EReal) (m ((c : Thread nD τ).loc main_arg2) : S4096x1024.Idx → EReal) (joinedWx m c) (joinedWh m c) (joinedBx m c) (joinedBh m c)

/-- Point `t` writes back block `t` of the new cell state. -/
theorem cell_written (c : Dev nD) (t : Fin cfg0.N) :
    (pipeData m 0 c).flushed 6 t = ((cfg0.win 6).blk t).view.read (Elt Ideal) (cellOf m c) := by
  show (cfg0.win 6).cut (grid0.coords t) ((pipeData m 0 c).after 6 t) = _
  rw [after_cell]
  unfold cellOut
  rw [View.canon_unit_zero zero_off]
  simp only [View.ld_unit_zero (S := S256x1024) zero_off, View.ld_unit_zero (S := S4096x1024) zero_off, View.ld_unit_zero (S := S1x4096) zero_off]
  funext j
  obtain ⟨p, q, rfl⟩ : ∃ (p : Fin 256) (q : Fin 1024), j = ix2 p q := ⟨j 0, j 1, eq_ix2 j⟩
  obtain ⟨-, -, -, -, -, -, -, -, -, -, -, -, e0, e1, -⟩ := block_indices t
  have hemb : ((cfg0.win 6).blk t).view.emb (ix2 p q) = ix2 (rowOf t p) q := funext fun a => Fin.ext (by
    match a with
    | ⟨0, _⟩ => show win0_6.index t (0 : Fin 2) * 256 + 1 * p.val = 256 * t.val + p.val; omega
    | ⟨1, _⟩ => show win0_6.index t (1 : Fin 2) * 1024 + 1 * q.val = q.val; omega)
  show k0_pay2 (F := Ideal) (blockAt m c 0 t) (blockAt m c 1 t) (blockAt m c 2 t) (blockAt m c 3 t) (blockAt m c 4 t) (blockAt m c 5 t) (ix2 p q) = cellOf m c (((cfg0.win 6).blk t).view.emb (ix2 p q))
  rw [hemb]
  refine (BodyValue.cell_at (blockAt m c 0 t) (blockAt m c 1 t) (blockAt m c 2 t) (blockAt m c 3 t) (blockAt m c 4 t) (blockAt m c 5 t) p q).trans ?_
  exact cell_value m c t p q

/-- Point `t` writes back block `t` of the new hidden state. -/
theorem hidden_written (c : Dev nD) (t : Fin cfg0.N) :
    (pipeData m 0 c).flushed 7 t = ((cfg0.win 7).blk t).view.read (Elt Ideal) (hiddenOf m c) := by
  show (cfg0.win 7).cut (grid0.coords t) ((pipeData m 0 c).after 7 t) = _
  rw [after_hidden]
  unfold hiddenOut
  rw [View.canon_unit_zero zero_off]
  simp only [View.ld_unit_zero (S := S256x1024) zero_off, View.ld_unit_zero (S := S4096x1024) zero_off, View.ld_unit_zero (S := S1x4096) zero_off]
  funext j
  obtain ⟨p, q, rfl⟩ : ∃ (p : Fin 256) (q : Fin 1024), j = ix2 p q := ⟨j 0, j 1, eq_ix2 j⟩
  obtain ⟨-, -, -, -, -, -, -, -, -, -, -, -, -, -, e0, e1⟩ := block_indices t
  have hemb : ((cfg0.win 7).blk t).view.emb (ix2 p q) = ix2 (rowOf t p) q := funext fun a => Fin.ext (by
    match a with
    | ⟨0, _⟩ => show win0_7.index t (0 : Fin 2) * 256 + 1 * p.val = 256 * t.val + p.val; omega
    | ⟨1, _⟩ => show win0_7.index t (1 : Fin 2) * 1024 + 1 * q.val = q.val; omega)
  show k0_pay3 (F := Ideal) (blockAt m c 0 t) (blockAt m c 1 t) (blockAt m c 2 t) (blockAt m c 3 t) (blockAt m c 4 t) (blockAt m c 5 t) (ix2 p q) = hiddenOf m c (((cfg0.win 7).blk t).view.emb (ix2 p q))
  rw [hemb]
  refine (BodyValue.hidden_at (blockAt m c 0 t) (blockAt m c 1 t) (blockAt m c 2 t) (blockAt m c 3 t) (blockAt m c 4 t) (blockAt m c 5 t) p q).trans ?_
  exact hidden_value m c t p q

/-! ## The sixteen blocks cover the arrays -/

/-- An index is in point `t`'s block of a result array iff each coordinate is in the block's range. -/
theorem mem_cell_block (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v16_0).slice (win0_6.rect t)).set ↔ _
  rw [View.set_slice_whole, Rect.mem_set_unit]
  exact Iff.rfl

theorem mem_hidden_block (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v16_1).slice (win0_7.rect t)).set ↔ _
  rw [View.set_slice_whole, Rect.mem_set_unit]
  exact Iff.rfl

/-- Row `r` of the new cell state lies in block `r / 256`. -/
theorem cell_covered (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 256, by rw [show cfg0.N = 16 from N_0]; omega⟩
  obtain ⟨-, -, -, -, -, -, -, -, -, -, -, -, e0, e1, -⟩ := block_indices t
  have ht : t.val = (i 0).val / 256 := rfl
  refine ⟨t, flush0_6 t, ?_⟩
  rw [mem_cell_block]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- The same for the new hidden state. -/
theorem hidden_covered (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  let t : Fin cfg0.N := ⟨(i 0).val / 256, by rw [show cfg0.N = 16 from N_0]; omega⟩
  obtain ⟨-, -, -, -, -, -, -, -, -, -, -, -, -, -, e0, e1⟩ := block_indices t
  have ht : t.val = (i 0).val / 256 := rfl
  refine ⟨t, flush0_7 t, ?_⟩
  rw [mem_hidden_block]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 1024 ≤ (i 1).val ∧ (i 1).val < win0_7.index t (1 : Fin 2) * 1024 + 1024; omega

/-! ## The result arrays after the run -/

theorem cell_final (c : Dev nD) : (pipeData m 0 c).arrAt 6 cfg0.N = cellOf m c :=
  (pipeData m 0 c).arrAt_eq_of_cover 6 (cellOf m c) (fun t _ => cell_written m c t) cell_covered

theorem hidden_final (c : Dev nD) : (pipeData m 0 c).arrAt 7 cfg0.N = hiddenOf m c :=
  (pipeData m 0 c).arrAt_eq_of_cover 7 (hiddenOf m c) (fun t _ => hidden_written m c t) hidden_covered

/-- The idealized kernel's run: it terminates without a fault, the two result arrays ending at the LSTM cell's
    functions of the launch contents and every argument array as launched. -/
theorem kernel_run : θ_run defs (onTc (τ := τ) (main (F := Ideal))) ⟨m, fun _ => 0, ρ⟩ fun r => ∀ c : Dev nD,
      r.2.mem ((c.tc : Thread nD τ).loc main_v16_0) = cellOf m c
      ∧ r.2.mem ((c.tc : Thread nD τ).loc main_v16_1) = hiddenOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 6).trans (cell_final m c), ((h c).1 7).trans (hidden_final m c),
      args_kept_at m (pipeData m) (arrays_eq m) r h c⟩)
    (region_run m ρ)

end Cert.KernelIdeal.Region

end
-- ==== Proof.RefValue.lean ====
/-
  The reference's two results are the LSTM cell's functions of its arguments.

  The reference joins the four gates' weight matrices along the rows and the four bias vectors, multiplies the
  input and the hidden state by the transposed joined matrices, adds the two products and the summed biases
  (repeated down the rows), slices the four gates out by columns, and applies 1 / (1 + e^(−x)) — spelled with a
  negation, an exponential, an addition of one and a division — and tanh. Read at an index, the product with
  a transposed matrix is the sum over k of x[r,k]·W[n,k]; the spelled-out sigmoid is the logistic function by
  definition; and the constant one is the real number one.
-/
import proofs.«165003_j10136122819072_2_alg».proof.Proof.Gen.ReferenceIdeal.Read
import proofs.«165003_j10136122819072_2_alg».proof.Proof.CellSpec

noncomputable section

namespace Cert.ReferenceIdeal.RefValue

open Cert.ReferenceIdeal Cert.ReferenceIdeal.Read Cert.LstmCell
open Idealize.ShloMosaic Idealize.ShloMosaic.ValueIdx

variable (x0 x1 x2 : Mat 4096 1024) (x3 : Mat 1024 1024) (x4 : Row 1024) (x5 : Mat 1024 1024) (x6 : Row 1024) (x7 : Mat 1024 1024) (x8 : Row 1024) (x9 : Mat 1024 1024) (x10 : Row 1024) (x11 : Mat 1024 1024) (x12 : Row 1024) (x13 : Mat 1024 1024) (x14 : Row 1024) (x15 : Mat 1024 1024) (x16 : Row 1024) (x17 : Mat 1024 1024) (x18 : Row 1024)

/-- The spelled-out sigmoid is the logistic function. -/
theorem sigmoid_spelled (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  show Ideal.div (Ideal.ofBits .f32 0x3F800000#32) (Ideal.ofBits .f32 0x3F800000#32 + Ideal.exp (-g)) = _
  rw [one_f32]
  rfl

/-- The reference's gate pre-activations, read at an index. -/
theorem gates_at (r n : Fin 4096) :
    val_main_v12 (F := Ideal) x0 x2 x3 x4 x5 x6 x7 x8 x9 x10 x11 x12 x13 x14 x15 x16 x17 x18 (ix2 r n) = gate x0 x2 (val_main_v0 (F := Ideal) x3 x7 x11 x15) (val_main_v1 (F := Ideal) x5 x9 x13 x17) (val_main_v2 (F := Ideal) x4 x8 x12 x16) (val_main_v3 (F := Ideal) x6 x10 x14 x18) r n := by
  have el5 : ∀ k : Fin 1024, lidx_main_v5 (ix2 r n) k = ix2 r k := fun k => funext fun a => Fin.ext (by
    match a with
    | ⟨0, _⟩ => rfl
    | ⟨1, _⟩ => rfl)
  have er5 : ∀ k : Fin 1024, idx_main_v4 (ridx_main_v5 (ix2 r n) k) = ix2 n k := fun k => funext fun a => Fin.ext (by
    match a with
    | ⟨0, _⟩ => rfl
    | ⟨1, _⟩ => rfl)
  have el7 : ∀ k : Fin 1024, lidx_main_v7 (ix2 r n) k = ix2 r k := fun k => funext fun a => Fin.ext (by
    match a with
    | ⟨0, _⟩ => rfl
    | ⟨1, _⟩ => rfl)
  have er7 : ∀ k : Fin 1024, idx_main_v6 (ridx_main_v7 (ix2 r n) k) = ix2 n k := fun k => funext fun a => Fin.ext (by
    match a with
    | ⟨0, _⟩ => rfl
    | ⟨1, _⟩ => rfl)
  have eb : idx_main_v10 (idx_main_v11 (ix2 r n)) = ix1 n := funext fun a => Fin.ext (by
    match a with
    | ⟨0, _⟩ => rfl)
  rw [val_main_v12_apply, val_main_v8_apply, val_main_v5_apply, val_main_v7_apply, val_main_v11_apply, val_main_v10_apply, val_main_v9_apply]
  simp only [val_main_v4_apply, val_main_v6_apply, el5, er5, el7, er7, eb]
  rfl

/-- The four column slices are the four gates. -/
theorem forget_idx (r : Fin 4096) (j : Fin 1024) : idx_main_v13 (ix2 r j) = ix2 r (unitOf 0 j) := funext fun a => Fin.ext (by
  match a with
  | ⟨0, _⟩ => rfl
  | ⟨1, _⟩ => show j.val = 1024 * 0 + j.val; omega)
theorem input_idx (r : Fin 4096) (j : Fin 1024) : idx_main_v20 (ix2 r j) = ix2 r (unitOf 1 j) := funext fun a => Fin.ext (by
  match a with
  | ⟨0, _⟩ => rfl
  | ⟨1, _⟩ => show 1024 + j.val = 1024 * 1 + j.val; omega)
theorem output_idx (r : Fin 4096) (j : Fin 1024) : idx_main_v27 (ix2 r j) = ix2 r (unitOf 2 j) := funext fun a => Fin.ext (by
  match a with
  | ⟨0, _⟩ => rfl
  | ⟨1, _⟩ => show 2048 + j.val = 1024 * 2 + j.val; omega)
theorem candidate_idx (r : Fin 4096) (j : Fin 1024) : idx_main_v34 (ix2 r j) = ix2 r (unitOf 3 j) := funext fun a => Fin.ext (by
  match a with
  | ⟨0, _⟩ => rfl
  | ⟨1, _⟩ => show 3072 + j.val = 1024 * 3 + j.val; omega)

/-- The reference's new cell state, read at an index. -/
theorem cell_at (r : Fin 4096) (j : Fin 1024) :
    val_main_v38 (F := Ideal) x0 x1 x2 x3 x4 x5 x6 x7 x8 x9 x10 x11 x12 x13 x14 x15 x16 x17 x18 (ix2 r j) = cellAt x0 x1 x2 (val_main_v0 (F := Ideal) x3 x7 x11 x15) (val_main_v1 (F := Ideal) x5 x9 x13 x17) (val_main_v2 (F := Ideal) x4 x8 x12 x16) (val_main_v3 (F := Ideal) x6 x10 x14 x18) r j := by
  rw [val_main_v38_apply, val_main_v36_apply, val_main_v37_apply, val_main_v19_apply, val_main_v35_apply, val_main_v26_apply,
    val_main_v18_apply, val_main_cst_0_apply, val_main_v17_apply, val_main_v16_apply, val_main_cst_apply, val_main_v15_apply, val_main_v14_apply, val_main_v13_apply,
    val_main_v34_apply,
    val_main_v25_apply, val_main_cst_2_apply, val_main_v24_apply, val_main_v23_apply, val_main_cst_1_apply, val_main_v22_apply, val_main_v21_apply, val_main_v20_apply,
    forget_idx, input_idx, candidate_idx, gates_at, gates_at, gates_at, sigmoid_spelled, sigmoid_spelled]
  rfl

/-- The reference's new hidden state, read at an index. -/
theorem hidden_at (r : Fin 4096) (j : Fin 1024) :
    val_main_v40 (F := Ideal) x0 x1 x2 x3 x4 x5 x6 x7 x8 x9 x10 x11 x12 x13 x14 x15 x16 x17 x18 (ix2 r j) = hiddenAt x0 x1 x2 (val_main_v0 (F := Ideal) x3 x7 x11 x15) (val_main_v1 (F := Ideal) x5 x9 x13 x17) (val_main_v2 (F := Ideal) x4 x8 x12 x16) (val_main_v3 (F := Ideal) x6 x10 x14 x18) r j := by
  rw [val_main_v40_apply, val_main_v39_apply, cell_at, val_main_v33_apply,
    val_main_v32_apply, val_main_cst_4_apply, val_main_v31_apply, val_main_v30_apply, val_main_cst_3_apply, val_main_v29_apply, val_main_v28_apply, val_main_v27_apply,
    output_idx, gates_at, sigmoid_spelled]
  rfl

/-- The reference's two results as whole arrays. -/
theorem cell_eq : val_main_v38 (F := Ideal) x0 x1 x2 x3 x4 x5 x6 x7 x8 x9 x10 x11 x12 x13 x14 x15 x16 x17 x18 = newCell x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext i
  obtain ⟨r, j, rfl⟩ : ∃ (r : Fin 4096) (j : Fin 1024), i = ix2 r j := ⟨i 0, i 1, eq_ix2 i⟩
  exact cell_at x0 x1 x2 x3 x4 x5 x6 x7 x8 x9 x10 x11 x12 x13 x14 x15 x16 x17 x18 r j

theorem hidden_eq : val_main_v40 (F := Ideal) x0 x1 x2 x3 x4 x5 x6 x7 x8 x9 x10 x11 x12 x13 x14 x15 x16 x17 x18 = newHidden x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext i
  obtain ⟨r, j, rfl⟩ : ∃ (r : Fin 4096) (j : Fin 1024), i = ix2 r j := ⟨i 0, i 1, eq_ix2 i⟩
  exact hidden_at x0 x1 x2 x3 x4 x5 x6 x7 x8 x9 x10 x11 x12 x13 x14 x15 x16 x17 x18 r j

end Cert.ReferenceIdeal.RefValue

end
-- ==== Proof.lean ====
/-
  The certificate of the LSTM-cell kernel against its reference.

  Frames. The word-level kernel and its idealization are one text read at two float instances, and the frame
  proof is generic in the instance: @main's host operations leave the argument arrays alone, the region's body
  runs at each of the sixteen grid points on whole staging buffers and stores both output blocks whole, and
  the one argument a window stages (the cell state) is an input window, never written back. The reference has
  no kernel: its frame is its run with the results dropped.

  Preservation. The idealization rewrote no operation, so there is nothing to state.

  Equality of results. On the extended reals a change of float format is the identity, a matrix product into
  a zero accumulator is the plain sum over the contracted axis (on the host as in the kernel), and the
  kernel's logistic operation is by definition 1 / (1 + e^(−x)), which the reference spells out. Both programs
  therefore end with

      cell'[r,j]   = σ(g[r,j])·c[r,j] + tanh(g[r,3072+j])·σ(g[r,1024+j])
      hidden'[r,j] = tanh(cell'[r,j])·σ(g[r,2048+j]),
      g[r,n]       = (Σₖ x[r,k]·Wx[n,k] + Σₖ h[r,k]·Wh[n,k]) + (bx[n] + bh[n]),

  over the same joined weights and biases; the kernel computes it sixteen blocks of 256 rows at a time and the
  blocks cover the arrays. No law used needs the inputs to be finite, so the precondition is never opened.
-/
import proofs.«165003_j10136122819072_2_alg».proof.Defs
import proofs.«165003_j10136122819072_2_alg».proof.Proof.Gen.Kernel
import proofs.«165003_j10136122819072_2_alg».proof.Proof.Gen.Kernel.Skeleton
import proofs.«165003_j10136122819072_2_alg».proof.Proof.Gen.Kernel.Launch
import proofs.«165003_j10136122819072_2_alg».proof.Proof.Gen.Kernel.Points
import proofs.«165003_j10136122819072_2_alg».proof.Proof.Gen.KernelIdeal
import proofs.«165003_j10136122819072_2_alg».proof.Proof.Gen.KernelIdeal.Skeleton
import proofs.«165003_j10136122819072_2_alg».proof.Proof.Gen.KernelIdeal.Launch
import proofs.«165003_j10136122819072_2_alg».proof.Proof.Gen.KernelIdeal.Points
import proofs.«165003_j10136122819072_2_alg».proof.Proof.Gen.ReferenceIdeal
import proofs.«165003_j10136122819072_2_alg».proof.Proof.Gen.Pre_finite_inputs
import proofs.«165003_j10136122819072_2_alg».proof.Proof.Gen.ReferenceIdeal.Run
import proofs.«165003_j10136122819072_2_alg».proof.Proof.Gen.ReferenceIdeal.Read
import proofs.«165003_j10136122819072_2_alg».proof.Proof.RegionRunK
import proofs.«165003_j10136122819072_2_alg».proof.Proof.ResultArrays
import proofs.«165003_j10136122819072_2_alg».proof.Proof.RefValue
import Idealize.ShloMosaic.Adequacy
import Idealize.ShloMosaic.Init

noncomputable section

namespace Cert.Proof

open Idealize.ShloMosaic Idealize.SL.Sem

/-- The word-level kernel runs to the end and leaves its arguments as launched. -/
theorem frame_kernel : Cert.frame_Kernel := fun m ρ _ => Cert.Kernel.Region.frame m ρ

/-- So does its idealization. -/
theorem frame_kernel_ideal : Cert.frame_KernelIdeal := fun m ρ _ => Cert.KernelIdeal.Region.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the LSTM cell's two functions of the (agreeing) argument arrays. -/
theorem algebraic : Cert.algebraic_KernelIdeal_ReferenceIdeal := by
  intro m ρ m' ρ' _ hagree
  refine ⟨fun c => Cert.KernelIdeal.Region.cellOf m c, fun c => Cert.KernelIdeal.Region.hiddenOf m c,
    Cert.KernelIdeal.Region.kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v38_eq, a0, a1, a2, a3, a4, a5, a6, a7, a8, a9, a10, a11, a12, a13, a14, a15, a16, a17, a18, Cert.ReferenceIdeal.RefValue.cell_eq]
    rfl
  · obtain ⟨a0, a1, a2, a3, a4, a5, a6, a7, a8, a9, a10, a11, a12, a13, a14, a15, a16, a17, a18⟩ := hagree c
    rw [Cert.ReferenceIdeal.Read.val_main_v40_eq, a0, a1, a2, a3, a4, a5, a6, a7, a8, a9, a10, a11, a12, a13, a14, a15, a16, a17, a18, Cert.ReferenceIdeal.RefValue.hidden_eq]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
